-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x5632 : Shape := ⟨2, ![1024, 5632]⟩
abbrev S1024x16 : Shape := ⟨2, ![1024, 16]⟩
abbrev S16x5632 : Shape := ⟨2, ![16, 5632]⟩
abbrev S2816x1024 : Shape := ⟨2, ![2816, 1024]⟩
abbrev S2816x16 : Shape := ⟨2, ![2816, 16]⟩
abbrev S16x1024 : Shape := ⟨2, ![16, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S1024x16 : S_.BroadcastsInDim S1024x16 (![] : Fin 0 → Fin S1024x16.rank)
  reducesTo_S1024x16_S_d0_1 : S1024x16.ReducesTo [0, 1] S_
  bcast_S_S16x5632 : S_.BroadcastsInDim S16x5632 (![] : Fin 0 → Fin S16x5632.rank)
  reducesTo_S16x5632_S_d0_1 : S16x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S2816x16 : S_.BroadcastsInDim S2816x16 (![] : Fin 0 → Fin S2816x16.rank)
  reducesTo_S2816x16_S_d0_1 : S2816x16.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg4 : FVec F S2816x1024 .f32) (main_arg5 : FVec F S2816x16 .f32) (main_arg6 : FVec F S16x1024 .f32) (main_v13 : IVec S_ 1) (main_v16 : IVec S16x5632 1) : IVec S_ 1 :=
  let main_c_5 : IVec S_ 1 := constantI S_ 1 1#1
  let main_v17 : IVec S_ 1 := (fun x v => Host.reduce IntOp.andi x v reducesTo_S16x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2816x16 .f32 := Host.absf main_arg5
  let main_cst_8 : FVec F S_ .f32 := constant S_ .f32 0x7F800000#32
  let main_v25 : FVec F S2816x16 .f32 := broadcastInDim S2816x16 ![] bcast_S_S2816x16 main_cst_8
  let main_v26 : IVec S2816x16 1 := cmpf .olt main_v24 main_v25
  let main_c_9 : IVec S_ 1 := constantI S_ 1 1#1
  let main_v27 : IVec S_ 1 := (fun x v => Host.reduce IntOp.andi x v reducesTo_S2816x16_S_d0_1 h_S_) main_v26 main_c_9
  let main_v28 : IVec S_ 1 := andi main_v23 main_v27
  let main_v29 : FVec F S16x1024 .f32 := Host.absf main_arg6
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  main_v33

def fn {F : FTy → Type} [FloatOps F] (main_arg0 : FVec F S16384x1024 .f32) (main_arg1 : FVec F S1024x5632 .f32) (main_arg2 : FVec F S1024x16 .f32) (main_arg3 : FVec F S16x5632 .f32) (main_arg4 : FVec F S2816x1024 .f32) (main_arg5 : FVec F S2816x16 .f32) (main_arg6 : FVec F S16x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S16x5632 .f32 := Host.absf main_arg3
  let main_cst_4 : FVec F S_ .f32 := constant S_ .f32 0x7F800000#32
  let main_v15 : FVec F S16x5632 .f32 := broadcastInDim S16x5632 ![] bcast_S_S16x5632 main_cst_4
  let main_v16 : IVec S16x5632 1 := cmpf .olt main_v14 main_v15
  fn_part1 (F := F) main_arg4 main_arg5 main_arg6 main_v13 main_v16
-- ==== Kernel.lean ====
abbrev S16384x1024 : Shape := ⟨2, ![16384, 1024]⟩
abbrev S1024x5632 : Shape := ⟨2, ![1024, 5632]⟩
abbrev S1024x16 : Shape := ⟨2, ![1024, 16]⟩
abbrev S16x5632 : Shape := ⟨2, ![16, 5632]⟩
abbrev S2816x1024 : Shape := ⟨2, ![2816, 1024]⟩
abbrev S2816x16 : Shape := ⟨2, ![2816, 16]⟩
abbrev S16x1024 : Shape := ⟨2, ![16, 1024]⟩
abbrev S256x1024 : Shape := ⟨2, ![256, 1024]⟩
abbrev S256x16 : Shape := ⟨2, ![256, 16]⟩
abbrev S1024x1408 : Shape := ⟨2, ![1024, 1408]⟩
abbrev S16x1408 : Shape := ⟨2, ![16, 1408]⟩
abbrev S256x1408 : Shape := ⟨2, ![256, 1408]⟩
abbrev S1408x1024 : Shape := ⟨2, ![1408, 1024]⟩
abbrev S1408x16 : Shape := ⟨2, ![1408, 16]⟩

abbrev nBuf : Space → Nat
  | .hbm => 14
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x16, .f32⟩
  | .hbm, ⟨3, _⟩ => ⟨S16x5632, .f32⟩
  | .hbm, ⟨4, _⟩ => ⟨S2816x1024, .f32⟩
  | .hbm, ⟨5, _⟩ => ⟨S2816x16, .f32⟩
  | .hbm, ⟨6, _⟩ => ⟨S16x1024, .f32⟩
  | .hbm, ⟨7, _⟩ => ⟨S1024x5632, .bf16⟩
  | .hbm, ⟨8, _⟩ => ⟨S1024x16, .bf16⟩
  | .hbm, ⟨9, _⟩ => ⟨S16x5632, .bf16⟩
  | .hbm, ⟨10, _⟩ => ⟨S2816x1024, .bf16⟩
  | .hbm, ⟨11, _⟩ => ⟨S2816x16, .bf16⟩
  | .hbm, ⟨12, _⟩ => ⟨S16x1024, .bf16⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S1024x16, .bf16⟩
  | .local _ .vmem, ⟨4, _⟩ => ⟨S16x5632, .bf16⟩
  | .local _ .vmem, ⟨5, _⟩ => ⟨S2816x1024, .bf16⟩
  | .local _ .vmem, ⟨6, _⟩ => ⟨S2816x16, .bf16⟩
  | .local _ .vmem, ⟨7, _⟩ => ⟨S16x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1408_i32 : BitVec 32 := 1408#32
  let v16 : BitVec 32 := Scalar.muli arg9 c1408_i32
  v16
def k0_mult2 (k0_t1 : Fin k0_t1_loop.trips) : BitVec 32 :=
  let c2816_i32 : BitVec 32 := 2816#32
  let c0_i32 : BitVec 32 := 0#32
  let c1_i32 : BitVec 32 := 1#32
  let arg9 : BitVec 32 := Scf.iv c0_i32 c1_i32 k0_t1
  let c1408_i32_11 : BitVec 32 := 1408#32
  let v18 : BitVec 32 := Scalar.muli arg9 c1408_i32_11
  let v19 : BitVec 32 := Scalar.addi c2816_i32 v18
  v19
def k0_off1 (k0_t1 : Fin k0_t1_loop.trips) : Fin 2 → Nat :=
  let c0_12 : Index := 0#32
  let c0_i32 : BitVec 32 := 0#32
  let c1_i32 : BitVec 32 := 1#32
  let arg9 : BitVec 32 := Scf.iv c0_i32 c1_i32 k0_t1
  let c1408_i32 : BitVec 32 := 1408#32
  let v16 : BitVec 32 := Scalar.muli arg9 c1408_i32
  let v17 : BitVec 32 := v16
  let v21 : Index := Scalar.indexCast v17
  ![0, v21.toNat]
def k0_off2 (k0_t1 : Fin k0_t1_loop.trips) : Fin 2 → Nat :=
  let c0_13 : Index := 0#32
  let c2816_i32 : BitVec 32 := 2816#32
  let c0_i32 : BitVec 32 := 0#32
  let c1_i32 : BitVec 32 := 1#32
  let arg9 : BitVec 32 := Scf.iv c0_i32 c1_i32 k0_t1
  let c1408_i32_11 : BitVec 32 := 1408#32
  let v18 : BitVec 32 := Scalar.muli arg9 c1408_i32_11
  let v19 : BitVec 32 := Scalar.addi c2816_i32 v18
  let v20 : BitVec 32 := v19
  let v24 : Index := Scalar.indexCast v20
  ![0, v24.toNat]
def k0_off3 (k0_t1 : Fin k0_t1_loop.trips) : Fin 2 → Nat :=
  let c0_14 : Index := 0#32
  let c0_i32 : BitVec 32 := 0#32
  let c1_i32 : BitVec 32 := 1#32
  let arg9 : BitVec 32 := Scf.iv c0_i32 c1_i32 k0_t1
  let c1408_i32 : BitVec 32 := 1408#32
  let v16 : BitVec 32 := Scalar.muli arg9 c1408_i32
  let v17 : BitVec 32 := v16
  let v27 : Index := Scalar.indexCast v17
  ![0, v27.toNat]
def k0_off4 (k0_t1 : Fin k0_t1_loop.trips) : Fin 2 → Nat :=
  let c0_15 : Index := 0#32
  let c2816_i32 : BitVec 32 := 2816#32
  let c0_i32 : BitVec 32 := 0#32
  let c1_i32 : BitVec 32 := 1#32
  let arg9 : BitVec 32 := Scf.iv c0_i32 c1_i32 k0_t1
  let c1408_i32_11 : BitVec 32 := 1408#32
  let v18 : BitVec 32 := Scalar.muli arg9 c1408_i32_11
  let v19 : BitVec 32 := Scalar.addi c2816_i32 v18
  let v20 : BitVec 32 := v19
  let v30 : Index := Scalar.indexCast v20
  ![0, v30.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1408_i32 : BitVec 32 := 1408#32
  let v16 : BitVec 32 := Scalar.muli arg9 c1408_i32
  let v17 : BitVec 32 := v16
  let v43 : Index := Scalar.indexCast v17
  let c0_20 : Index := 0#32
  ![v43.toNat, 0]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1408_i32 : BitVec 32 := 1408#32
  let v16 : BitVec 32 := Scalar.muli arg9 c1408_i32
  let v17 : BitVec 32 := v16
  let v46 : Index := Scalar.indexCast v17
  let c0_21 : Index := 0#32
  ![v46.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  h_S1024x1408 : 0 < S1024x1408.numel
  shapeCasts_S1024x1408_S1024x1408 : S1024x1408.ShapeCasts S1024x1408
  h_S16x1408 : 0 < S16x1408.numel
  shapeCasts_S16x1408_S16x1408 : S16x1408.ShapeCasts S16x1408
  h_S1408x1024 : 0 < S1408x1024.numel
  shapeCasts_S1408x1024_S1408x1024 : S1408x1024.ShapeCasts S1408x1024
  h_S1408x16 : 0 < S1408x16.numel
  shapeCasts_S1408x16_S1408x16 : S1408x16.ShapeCasts S1408x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  dot_S256x1024_S1024x16_S256x16_1_0_0_1_n_n_wf : DotDims.WF S256x1024 S1024x16 S256x16 [1] [0] [0] [1] [] []
  dot_S256x1024_S1024x1408_S256x1408_1_0_0_1_n_n_wf : DotDims.WF S256x1024 S1024x1408 S256x1408 [1] [0] [0] [1] [] []
  dot_S256x16_S16x1408_S256x1408_1_0_0_1_n_n_wf : DotDims.WF S256x16 S16x1408 S256x1408 [1] [0] [0] [1] [] []
  dot_S256x1408_S1408x1024_S256x1024_1_0_0_1_n_n_wf : DotDims.WF S256x1408 S1408x1024 S256x1024 [1] [0] [0] [1] [] []
  dot_S256x1408_S1408x16_S256x16_1_0_0_1_n_n_wf : DotDims.WF S256x1408 S1408x16 S256x16 [1] [0] [0] [1] [] []
  dot_S256x16_S16x1024_S256x1024_1_0_0_1_n_n_wf : DotDims.WF S256x16 S16x1024 S256x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_off1_inb : ∀ k0_t1 : Fin k0_t1_loop.trips, ∀ a, (k0_off1 k0_t1) a + S1024x1408.size a ≤ S1024x5632.size a
  k0_off2_inb : ∀ k0_t1 : Fin k0_t1_loop.trips, ∀ a, (k0_off2 k0_t1) a + S1024x1408.size a ≤ S1024x5632.size a
  k0_off3_inb : ∀ k0_t1 : Fin k0_t1_loop.trips, ∀ a, (k0_off3 k0_t1) a + S16x1408.size a ≤ S16x5632.size a
  k0_off4_inb : ∀ k0_t1 : Fin k0_t1_loop.trips, ∀ a, (k0_off4 k0_t1) a + S16x1408.size a ≤ S16x5632.size a
  k0_off5_inb : ∀ k0_t1 : Fin k0_t1_loop.trips, ∀ a, (k0_off5 k0_t1) a + S1408x1024.size a ≤ S2816x1024.size a
  k0_off6_inb : ∀ k0_t1 : Fin k0_t1_loop.trips, ∀ a, (k0_off6 k0_t1) a + S1408x16.size a ≤ S2816x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x5632.size a ≤ S1024x5632.size a
  hwx0_1 : ∀ i : grid0.Coords, EltTy.bits .bf16 = 32 ∨ (Rect.block (s := S1024x5632) S1024x5632.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .bf16 = 32 ∨ (Rect.block (s := S1024x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x5632.size a ≤ S16x5632.size a
  hwx0_3 : ∀ i : grid0.Coords, EltTy.bits .bf16 = 32 ∨ (Rect.block (s := S16x5632) S16x5632.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2816x1024.size a ≤ S2816x1024.size a
  hwx0_4 : ∀ i : grid0.Coords, EltTy.bits .bf16 = 32 ∨ (Rect.block (s := S2816x1024) S2816x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2816x16.size a ≤ S2816x16.size a
  hwx0_5 : ∀ i : grid0.Coords, EltTy.bits .bf16 = 32 ∨ (Rect.block (s := S2816x16) S2816x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1024.size a ≤ S16x1024.size a
  hwx0_6 : ∀ i : grid0.Coords, EltTy.bits .bf16 = 32 ∨ (Rect.block (s := S16x1024) S16x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x1024_S1024x1408_S256x1408_1_0_0_1_n_n : DotDims S256x1024 S1024x1408 S256x1408 where
  lhsContracting := [1]
  rhsContracting := [0]
  lhsNonContracting := [0]
  rhsNonContracting := [1]
  lhsBatch := []
  rhsBatch := []
  wf := dot_S256x1024_S1024x1408_S256x1408_1_0_0_1_n_n_wf
def dot_S256x16_S16x1408_S256x1408_1_0_0_1_n_n : DotDims S256x16 S16x1408 S256x1408 where
  lhsContracting := [1]
  rhsContracting := [0]
  lhsNonContracting := [0]
  rhsNonContracting := [1]
  lhsBatch := []
  rhsBatch := []
  wf := dot_S256x16_S16x1408_S256x1408_1_0_0_1_n_n_wf
def dot_S256x1408_S1408x1024_S256x1024_1_0_0_1_n_n : DotDims S256x1408 S1408x1024 S256x1024 where
  lhsContracting := [1]
  rhsContracting := [0]
  lhsNonContracting := [0]
  rhsNonContracting := [1]
  lhsBatch := []
  rhsBatch := []
  wf := dot_S256x1408_S1408x1024_S256x1024_1_0_0_1_n_n_wf
def dot_S256x1408_S1408x16_S256x16_1_0_0_1_n_n : DotDims S256x1408 S1408x16 S256x16 where
  lhsContracting := [1]
  rhsContracting := [0]
  lhsNonContracting := [0]
  rhsNonContracting := [1]
  lhsBatch := []
  rhsBatch := []
  wf := dot_S256x1408_S1408x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x5632.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S16x5632.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S2816x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S2816x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S16x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x5632 : Shape := ⟨2, ![1024, 5632]⟩
abbrev S1024x16 : Shape := ⟨2, ![1024, 16]⟩
abbrev S16x5632 : Shape := ⟨2, ![16, 5632]⟩
abbrev S2816x1024 : Shape := ⟨2, ![2816, 1024]⟩
abbrev S2816x16 : Shape := ⟨2, ![2816, 16]⟩
abbrev S16x1024 : Shape := ⟨2, ![16, 1024]⟩
abbrev S16384x5632 : Shape := ⟨2, ![16384, 5632]⟩
abbrev S16384x16 : Shape := ⟨2, ![16384, 16]⟩
abbrev S16384x2816 : Shape := ⟨2, ![16384, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x16, .f32⟩
  | .hbm, ⟨3, _⟩ => ⟨S16x5632, .f32⟩
  | .hbm, ⟨4, _⟩ => ⟨S2816x1024, .f32⟩
  | .hbm, ⟨5, _⟩ => ⟨S2816x16, .f32⟩
  | .hbm, ⟨6, _⟩ => ⟨S16x1024, .f32⟩
  | .hbm, ⟨7, _⟩ => ⟨S16384x5632, .f32⟩
  | .hbm, ⟨8, _⟩ => ⟨S16384x16, .f32⟩
  | .hbm, ⟨9, _⟩ => ⟨S16384x5632, .f32⟩
  | .hbm, ⟨10, _⟩ => ⟨S16384x5632, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S16384x16, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  slices_S16384x5632_S16384x2816_0_0 : S16384x5632.Slices ![0, 0] S16384x2816
  slices_S16384x5632_S16384x2816_0_2816 : S16384x5632.Slices ![0, 2816] S16384x2816
  bcast_S_S16384x2816 : S_.BroadcastsInDim S16384x2816 (![] : Fin 0 → Fin S16384x2816.rank)
  dot_S16384x1024_S1024x5632_S16384x5632_1_0_0_1_n_n_wf : DotDims.WF S16384x1024 S1024x5632 S16384x5632 [1] [0] [0] [1] [] []
  dot_S16384x1024_S1024x16_S16384x16_1_0_0_1_n_n_wf : DotDims.WF S16384x1024 S1024x16 S16384x16 [1] [0] [0] [1] [] []
  dot_S16384x16_S16x5632_S16384x5632_1_0_0_1_n_n_wf : DotDims.WF S16384x16 S16x5632 S16384x5632 [1] [0] [0] [1] [] []
  dot_S16384x2816_S2816x1024_S16384x1024_1_0_0_1_n_n_wf : DotDims.WF S16384x2816 S2816x1024 S16384x1024 [1] [0] [0] [1] [] []
  dot_S16384x2816_S2816x16_S16384x16_1_0_0_1_n_n_wf : DotDims.WF S16384x2816 S2816x16 S16384x16 [1] [0] [0] [1] [] []
  dot_S16384x16_S16x1024_S16384x1024_1_0_0_1_n_n_wf : DotDims.WF S16384x16 S16x1024 S16384x1024 [1] [0] [0] [1] [] []

variable [Facts₀]

def dot_S16384x1024_S1024x5632_S16384x5632_1_0_0_1_n_n : DotDims S16384x1024 S1024x5632 S16384x5632 where
  lhsContracting := [1]
  rhsContracting := [0]
  lhsNonContracting := [0]
  rhsNonContracting := [1]
  lhsBatch := []
  rhsBatch := []
  wf := dot_S16384x1024_S1024x5632_S16384x5632_1_0_0_1_n_n_wf
def dot_S16384x1024_S1024x16_S16384x16_1_0_0_1_n_n : DotDims S16384x1024 S1024x16 S16384x16 where
  lhsContracting := [1]
  rhsContracting := [0]
  lhsNonContracting := [0]
  rhsNonContracting := [1]
  lhsBatch := []
  rhsBatch := []
  wf := dot_S16384x1024_S1024x16_S16384x16_1_0_0_1_n_n_wf
def dot_S16384x16_S16x5632_S16384x5632_1_0_0_1_n_n : DotDims S16384x16 S16x5632 S16384x5632 where
  lhsContracting := [1]
  rhsContracting := [0]
  lhsNonContracting := [0]
  rhsNonContracting := [1]
  lhsBatch := []
  rhsBatch := []
  wf := dot_S16384x16_S16x5632_S16384x5632_1_0_0_1_n_n_wf
def dot_S16384x2816_S2816x1024_S16384x1024_1_0_0_1_n_n : DotDims S16384x2816 S2816x1024 S16384x1024 where
  lhsContracting := [1]
  rhsContracting := [0]
  lhsNonContracting := [0]
  rhsNonContracting := [1]
  lhsBatch := []
  rhsBatch := []
  wf := dot_S16384x2816_S2816x1024_S16384x1024_1_0_0_1_n_n_wf
def dot_S16384x2816_S2816x16_S16384x16_1_0_0_1_n_n : DotDims S16384x2816 S2816x16 S16384x16 where
  lhsContracting := [1]
  rhsContracting := [0]
  lhsNonContracting := [0]
  rhsNonContracting := [1]
  lhsBatch := []
  rhsBatch := []
  wf := dot_S16384x2816_S2816x16_S16384x16_1_0_0_1_n_n_wf
def dot_S16384x16_S16x1024_S16384x1024_1_0_0_1_n_n : DotDims S16384x16 S16x1024 S16384x1024 where
  lhsContracting := [1]
  rhsContracting := [0]
  lhsNonContracting := [0]
  rhsNonContracting := [1]
  lhsBatch := []
  rhsBatch := []
  wf := dot_S16384x16_S16x1024_S16384x1024_1_0_0_1_n_n_wf

class Facts : Prop extends Facts₀ where

variable [Facts]
-- ==== Proof.KernelBody.lean ====
/-
  What the kernel body leaves in its output block, as a pure term of the point's input blocks.

  The body reads the token tile x₀ [256, 1024] and the six weight matrices whole, runs a counted loop of two trips
  that carries a pair of accumulators (a [256, 1024] one and a [256, 16] one), and stores once. Trip k reads the
  four [·, 1408] column slices of the gate-and-up weights at column offsets 1408·k and 1408·k + 2816 and the two
  [1408, ·] row slices of the down weights at row offset 1408·k, and adds its two products into the accumulators.
  So the stored block is: the last payload applied to (trip 1 ∘ trip 0) of the zero accumulators.
-/
import proofs.«167584_j86595130622105_2_alg».proof.Proof.Gen.KernelIdeal.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

/-- The offsets `![0, 0]` are the zero offsets. -/
theorem off00 : (![0, 0] : Fin 2 → Nat) = fun _ => 0 := by
  funext a; fin_cases a <;> rfl

/-- The loop has two trips. -/
theorem trips_eq : k0_t1_loop.trips = 2 := by decide

/-- Trip number k, as a trip of the loop. -/
abbrev tripIx (k : Nat) (hk : k < 2) : Fin k0_t1_loop.trips := ⟨k, trips_eq ▸ hk⟩

/-- One trip's effect on the carried pair, over the six weight slices it reads. -/
def tripVal (x0 : Vec F S256x1024 .f32) (x1 : Vec F S1024x5632 .bf16) (x2 : Vec F S1024x16 .bf16) (x3 : Vec F S16x5632 .bf16)
    (x4 : Vec F S2816x1024 .bf16) (x5 : Vec F S2816x16 .bf16) (k : Fin k0_t1_loop.trips)
    (acc : FVec F S256x1024 .f32 × FVec F S256x16 .f32) : FVec F S256x1024 .f32 × FVec F S256x16 .f32 :=
  (k0_pay4 x0 x2 acc.1
      (View.ld x1 (Rect.unit (s := S1024x5632) (k0_off1 k) S1024x1408.size (k0_off1_inb k)))
      (View.ld x1 (Rect.unit (s := S1024x5632) (k0_off2 k) S1024x1408.size (k0_off2_inb k)))
      (View.ld x3 (Rect.unit (s := S16x5632) (k0_off3 k) S16x1408.size (k0_off3_inb k)))
      (View.ld x3 (Rect.unit (s := S16x5632) (k0_off4 k) S16x1408.size (k0_off4_inb k)))
      (View.ld x4 (Rect.unit (s := S2816x1024) (k0_off5 k) S1408x1024.size (k0_off5_inb k))),
   k0_pay5 x0 x2 acc.2
      (View.ld x1 (Rect.unit (s := S1024x5632) (k0_off1 k) S1024x1408.size (k0_off1_inb k)))
      (View.ld x1 (Rect.unit (s := S1024x5632) (k0_off2 k) S1024x1408.size (k0_off2_inb k)))
      (View.ld x3 (Rect.unit (s := S16x5632) (k0_off3 k) S16x1408.size (k0_off3_inb k)))
      (View.ld x3 (Rect.unit (s := S16x5632) (k0_off4 k) S16x1408.size (k0_off4_inb k)))
      (View.ld x5 (Rect.unit (s := S2816x16) (k0_off6 k) S1408x16.size (k0_off6_inb k))))

/-- The stored block: the closing payload of the pair carried through both trips from zero. -/
def bodyVal (x0 : Vec F S256x1024 .f32) (x1 : Vec F S1024x5632 .bf16) (x2 : Vec F S1024x16 .bf16) (x3 : Vec F S16x5632 .bf16)
    (x4 : Vec F S2816x1024 .bf16) (x5 : Vec F S2816x16 .bf16) (x6 : Vec F S16x1024 .bf16) : FVec F S256x1024 .f32 :=
  k0_pay6
    (tripVal x0 x1 x2 x3 x4 x5 (tripIx 1 (by decide)) (tripVal x0 x1 x2 x3 x4 x5 (tripIx 0 (by decide)) (k0_pay1, k0_pay2))).1
    (tripVal x0 x1 x2 x3 x4 x5 (tripIx 1 (by decide)) (tripVal x0 x1 x2 x3 x4 x5 (tripIx 0 (by decide)) (k0_pay1, k0_pay2))).2
    x6

/-- What one trip of the run yields, for whole staging buffers holding x₁, x₃, x₄, x₅. -/
theorem tripR_eq (𝒱 : Variants) (bd : Option 𝒱.V) (c : Dev nD) (i : grid0.Coords) (arg1 : Memref sig .tc .vmem S256x1024 .f32) (harg1 : arg1.IsWhole) (arg2 : Memref sig .tc .vmem S1024x5632 .bf16) (harg2 : arg2.IsWhole) (arg3 : Memref sig .tc .vmem S1024x16 .bf16) (harg3 : arg3.IsWhole) (arg4 : Memref sig .tc .vmem S16x5632 .bf16) (harg4 : arg4.IsWhole) (arg5 : Memref sig .tc .vmem S2816x1024 .bf16) (harg5 : arg5.IsWhole) (arg6 : Memref sig .tc .vmem S2816x16 .bf16) (harg6 : arg6.IsWhole) (arg7 : Memref sig .tc .vmem S16x1024 .bf16) (harg7 : arg7.IsWhole) (arg8 : Memref sig .tc .vmem S256x1024 .f32) (harg8 : arg8.IsWhole)
    (x0 : Vec F S256x1024 .f32) (x1 : Vec F S1024x5632 .bf16) (x2 : Vec F S1024x16 .bf16) (x3 : Vec F S16x5632 .bf16)
    (x4 : Vec F S2816x1024 .bf16) (x5 : Vec F S2816x16 .bf16) (k : Fin k0_t1_loop.trips)
    (acc : FVec F S256x1024 .f32 × FVec F S256x16 .f32) :
    tripR_k0_t1 (F := F) 𝒱 c bd i arg1 harg1 arg2 harg2 arg3 harg3 arg4 harg4 arg5 harg5 arg6 harg6 arg7 harg7 arg8 harg8 x0 x2 (harg2.unread x1) (harg4.unread x3) (harg5.unread x4) (harg6.unread x5) k acc
      = tripVal x0 x1 x2 x3 x4 x5 k acc := by
  unfold tripR_k0_t1 trip_k0_t1 tripVal
  dsimp only
  simp only [View.readAt_eq_ld, harg2.read_unread, harg4.read_unread, harg5.read_unread, harg6.read_unread]

/-- The carried pair after both trips. -/
theorem st_two (𝒱 : Variants) (bd : Option 𝒱.V) (c : Dev nD) (i : grid0.Coords) (arg1 : Memref sig .tc .vmem S256x1024 .f32) (harg1 : arg1.IsWhole) (arg2 : Memref sig .tc .vmem S1024x5632 .bf16) (harg2 : arg2.IsWhole) (arg3 : Memref sig .tc .vmem S1024x16 .bf16) (harg3 : arg3.IsWhole) (arg4 : Memref sig .tc .vmem S16x5632 .bf16) (harg4 : arg4.IsWhole) (arg5 : Memref sig .tc .vmem S2816x1024 .bf16) (harg5 : arg5.IsWhole) (arg6 : Memref sig .tc .vmem S2816x16 .bf16) (harg6 : arg6.IsWhole) (arg7 : Memref sig .tc .vmem S16x1024 .bf16) (harg7 : arg7.IsWhole) (arg8 : Memref sig .tc .vmem S256x1024 .f32) (harg8 : arg8.IsWhole)
    (x0 : Vec F S256x1024 .f32) (x1 : Vec F S1024x5632 .bf16) (x2 : Vec F S1024x16 .bf16) (x3 : Vec F S16x5632 .bf16)
    (x4 : Vec F S2816x1024 .bf16) (x5 : Vec F S2816x16 .bf16) (init : FVec F S256x1024 .f32 × FVec F S256x16 .f32) :
    st_k0_t1 (F := F) 𝒱 c bd i arg1 harg1 arg2 harg2 arg3 harg3 arg4 harg4 arg5 harg5 arg6 harg6 arg7 harg7 arg8 harg8 x0 x2 (harg2.unread x1) (harg4.unread x3) (harg5.unread x4) (harg6.unread x5) init 2
      = tripVal x0 x1 x2 x3 x4 x5 (tripIx 1 (by decide)) (tripVal x0 x1 x2 x3 x4 x5 (tripIx 0 (by decide)) init) := by
  have e1 := st_k0_t1_succ (F := F) 𝒱 c bd i arg1 harg1 arg2 harg2 arg3 harg3 arg4 harg4 arg5 harg5 arg6 harg6 arg7 harg7 arg8 harg8 x0 x2 (harg2.unread x1) (harg4.unread x3) (harg5.unread x4) (harg6.unread x5) init (tripIx 1 (by decide))
  have e0 := st_k0_t1_succ (F := F) 𝒱 c bd i arg1 harg1 arg2 harg2 arg3 harg3 arg4 harg4 arg5 harg5 arg6 harg6 arg7 harg7 arg8 harg8 x0 x2 (harg2.unread x1) (harg4.unread x3) (harg5.unread x4) (harg6.unread x5) init (tripIx 0 (by decide))
  rw [tripR_eq] at e1 e0
  exact e1.trans (congrArg _ e0)

/-- THE BODY'S OUTPUT BLOCK is `bodyVal` of the point's input blocks. -/
theorem out_eq (c : Dev nD) (i : grid0.Coords) (arg1 : Memref sig .tc .vmem S256x1024 .f32) (harg1 : arg1.IsWhole) (arg2 : Memref sig .tc .vmem S1024x5632 .bf16) (harg2 : arg2.IsWhole) (arg3 : Memref sig .tc .vmem S1024x16 .bf16) (harg3 : arg3.IsWhole) (arg4 : Memref sig .tc .vmem S16x5632 .bf16) (harg4 : arg4.IsWhole) (arg5 : Memref sig .tc .vmem S2816x1024 .bf16) (harg5 : arg5.IsWhole) (arg6 : Memref sig .tc .vmem S2816x16 .bf16) (harg6 : arg6.IsWhole) (arg7 : Memref sig .tc .vmem S16x1024 .bf16) (harg7 : arg7.IsWhole) (arg8 : Memref sig .tc .vmem S256x1024 .f32) (harg8 : arg8.IsWhole)
    (x0 : Vec F S256x1024 .f32) (x1 : Vec F S1024x5632 .bf16) (x2 : Vec F S1024x16 .bf16) (x3 : Vec F S16x5632 .bf16)
    (x4 : Vec F S2816x1024 .bf16) (x5 : Vec F S2816x16 .bf16) (x6 : Vec F S16x1024 .bf16) :
    out0_A_7 c i arg1 harg1 arg2 harg2 arg3 harg3 arg4 harg4 arg5 harg5 arg6 harg6 arg7 harg7 arg8 harg8 x0 x1 x2 x3 x4 x5 x6 = bodyVal x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  rw [View.canon_unit_zero (S := S256x1024) off00]
  simp only [View.readAt_eq_ld, harg1.read_unread, harg3.read_unread, harg7.read_unread,
    View.ld_unit_zero (S := S256x1024) off00, View.ld_unit_zero (S := S1024x16) off00, View.ld_unit_zero (S := S16x1024) off00]
  rw [show Scf.trips (0#32) (Scalar.addi 0#32 2#32) 1#32 = 2 from by decide, st_two]
  rfl

end Cert.KernelIdeal.Body

end
-- ==== Proof.Spec.lean ====
/-
  The function both programs compute, one token row at a time.

  For a row x ∈ ℝ̄^1024 (the extended reals) and weights W₁ [1024, 5632], A₁ [1024, 16], B₁ [16, 5632],
  W₂ [2816, 1024], A₂ [2816, 16], B₂ [16, 1024]:

    low(r)    = Σ_d x(d) · A₁(d, r)                                  the rank-16 image of the row
    gu(n)     = Σ_d x(d) · W₁(d, n)  +  Σ_r low(r) · B₁(r, n)         gate (n < 2816) and up (n ≥ 2816) columns
    h(k)      = (gu(k) · σ(gu(k))) · gu(2816 + k)                     σ(t) = 1 / (1 + e^(−t))
    out(j)    = Σ_k h(k) · W₂(k, j)  +  Σ_r (Σ_k h(k) · A₂(k, r)) · B₂(r, j)

  The sums over the 2816 hidden columns may be taken in two halves of 1408 columns, each half added into an
  accumulator that starts at zero: addition of extended reals is commutative and associative and 0 is neutral,
  so no finiteness is needed.
-/
import Idealize.ShloMosaic.PureOps.Ideal
import Idealize.ShloMosaic.PureOps.Ideal.Laws
import Idealize.ShloMosaic.Lib.ValueIdx

noncomputable section

namespace Cert.LoraMlp

open Idealize.ShloMosaic Idealize.ShloMosaic.ValueIdx

/-- A matrix of extended reals with literal extents, read at a pair of coordinates by `ix2`. -/
abbrev Mat (r c : Nat) : Type := (⟨2, ![r, c]⟩ : Shape).Idx → EReal

/-- Column k of the gate half of the 5632 gate-and-up columns. -/
def gateCol (k : Fin 2816) : Fin 5632 := ⟨k.val, by have := k.isLt; omega⟩
/-- Column k of the up half: 2816 columns further on. -/
def upCol (k : Fin 2816) : Fin 5632 := ⟨2816 + k.val, by have := k.isLt; omega⟩
/-- Hidden column a of half c (c = 0 or 1): 1408 · c + a. -/
def halfCol (c : Nat) (hc : c < 2) (a : Fin 1408) : Fin 2816 := ⟨1408 * c + a.val, by have := a.isLt; omega⟩

section
variable (W1 : Mat 1024 5632) (A1 : Mat 1024 16) (B1 : Mat 16 5632)
  (W2 : Mat 2816 1024) (A2 : Mat 2816 16) (B2 : Mat 16 1024)

/-- The rank-16 image of a row. -/
def lowRank (x : Fin 1024 → EReal) (r : Fin 16) : EReal := ∑ d : Fin 1024, x d * A1 (ix2 d r)

/-- The gate-and-up projection with its low-rank correction, at column n. -/
def gateUp (x : Fin 1024 → EReal) (n : Fin 5632) : EReal :=
  (∑ d : Fin 1024, x d * W1 (ix2 d n)) + ∑ r : Fin 16, lowRank A1 x r * B1 (ix2 r n)

/-- The hidden activation: the gate times its logistic, times the up column. -/
def hiddenAct (x : Fin 1024 → EReal) (k : Fin 2816) : EReal :=
  (gateUp W1 A1 B1 x (gateCol k) * Ideal.logistic (gateUp W1 A1 B1 x (gateCol k))) * gateUp W1 A1 B1 x (upCol k)

/-- The down projection with its low-rank correction, at output column j. -/
def rowOut (x : Fin 1024 → EReal) (j : Fin 1024) : EReal :=
  (∑ k : Fin 2816, hiddenAct W1 A1 B1 x k * W2 (ix2 k j))
    + ∑ r : Fin 16, (∑ k : Fin 2816, hiddenAct W1 A1 B1 x k * A2 (ix2 k r)) * B2 (ix2 r j)

end

/-- THE WHOLE RESULT: entry (i, j) is the row function of row i of the token matrix, at column j. -/
def wholeOut (X : Mat 16384 1024) (W1 : Mat 1024 5632) (A1 : Mat 1024 16) (B1 : Mat 16 5632)
    (W2 : Mat 2816 1024) (A2 : Mat 2816 16) (B2 : Mat 16 1024) : Mat 16384 1024 :=
  fun i => rowOut W1 A1 B1 W2 A2 B2 (fun d => X (ix2 (i 0 : Fin 16384) d)) (i 1 : Fin 1024)

theorem wholeOut_ix2 (X : Mat 16384 1024) (W1 : Mat 1024 5632) (A1 : Mat 1024 16) (B1 : Mat 16 5632)
    (W2 : Mat 2816 1024) (A2 : Mat 2816 16) (B2 : Mat 16 1024) (i : Fin 16384) (j : Fin 1024) :
    wholeOut X W1 A1 B1 W2 A2 B2 (ix2 i j) = rowOut W1 A1 B1 W2 A2 B2 (fun d => X (ix2 i d)) j := rfl

/-- A sum over 2816 columns, taken as zero plus the first 1408 columns plus the last 1408 columns. -/
theorem sum_two_halves (f : Fin 2816 → EReal) :
    ((0 : EReal) + ∑ a : Fin 1408, f (halfCol 0 (by decide) a)) + ∑ a : Fin 1408, f (halfCol 1 (by decide) a)
      = ∑ k : Fin 2816, f k := by
  rw [zero_add]
  have h := Fin.sum_univ_add (M := EReal) (a := 1408) (b := 1408) f
  rw [h]
  refine congrArg₂ (· + ·) ?_ ?_
  · refine Finset.sum_congr rfl fun a _ => congrArg f (Fin.ext ?_)
    show 1408 * 0 + a.val = a.val
    omega
  · refine Finset.sum_congr rfl fun a _ => congrArg f (Fin.ext ?_)
    show 1408 * 1 + a.val = 1408 + a.val
    omega

/-- The word 0x3F800000 is the number one. -/
theorem one_f32 : Ideal.ofBits .f32 0x3F800000#32 = 1 := by
  simp [Ideal.ofBits, Ideal.ieee, -EReal.coe_mul]; norm_num

/-- The row function with both hidden sums taken half by half into zero accumulators. -/
theorem rowOut_halves (W1 : Mat 1024 5632) (A1 : Mat 1024 16) (B1 : Mat 16 5632)
    (W2 : Mat 2816 1024) (A2 : Mat 2816 16) (B2 : Mat 16 1024) (x : Fin 1024 → EReal) (j : Fin 1024) :
    (((0 : EReal) + ∑ a : Fin 1408, hiddenAct W1 A1 B1 x (halfCol 0 (by decide) a) * W2 (ix2 (halfCol 0 (by decide) a) j))
        + ∑ a : Fin 1408, hiddenAct W1 A1 B1 x (halfCol 1 (by decide) a) * W2 (ix2 (halfCol 1 (by decide) a) j))
      + ∑ r : Fin 16,
          (((0 : EReal) + ∑ a : Fin 1408, hiddenAct W1 A1 B1 x (halfCol 0 (by decide) a) * A2 (ix2 (halfCol 0 (by decide) a) r))
            + ∑ a : Fin 1408, hiddenAct W1 A1 B1 x (halfCol 1 (by decide) a) * A2 (ix2 (halfCol 1 (by decide) a) r)) * B2 (ix2 r j)
      = rowOut W1 A1 B1 W2 A2 B2 x j := by
  unfold rowOut
  rw [sum_two_halves (fun k => hiddenAct W1 A1 B1 x k * W2 (ix2 k j))]
  refine congrArg _ (Finset.sum_congr rfl fun r _ => ?_)
  rw [sum_two_halves (fun k => hiddenAct W1 A1 B1 x k * A2 (ix2 k r))]

end Cert.LoraMlp

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibSliceRead.lean ====
/-
  A unit-stride rectangle of a matrix, read at a pair of coordinates.

  For an [R, C] array X of any element type, the [r, c] rectangle with unit strides at offsets (o₀, o₁) reads, at its
  local index (p, q), the array at (o₀ + p, o₁ + q). The offsets may be given by any function that is known to equal
  the pair (a chain of integer operations with a proved closed form, say).
-/
import Idealize.ShloMosaic.Lib.Pipeline.Value
import Idealize.ShloMosaic.Lib.ValueIdx

noncomputable section

namespace Cert.SliceRead

open Idealize.ShloMosaic Idealize.ShloMosaic.ValueIdx

/-- The [r, c] unit-stride rectangle at offsets (o₀, o₁) of an [R, C] array, at local (p, q), is the array at
    (o₀ + p, o₁ + q). -/
theorem ld_unit2 {Val : EltTy → Type} {e : EltTy} {R C r c : Nat} (X : (⟨2, ![R, C]⟩ : Shape).Idx → Val e)
    (off : Fin 2 → Nat) (o0 o1 : Nat) (hoff : off = ![o0, o1])
    (inb : ∀ a, off a + (![r, c] : Fin 2 → Nat) a ≤ (⟨2, ![R, C]⟩ : Shape).size a)
    (p : Fin r) (q : Fin c) (h0 : o0 + p.val < R) (h1 : o1 + q.val < C) :
    View.ld X (Rect.unit (s := ⟨2, ![R, C]⟩) off ![r, c] inb) (ix2 p q)
      = X (ix2 ⟨o0 + p.val, h0⟩ ⟨o1 + q.val, h1⟩) := by
  subst hoff
  show X ((Rect.unit (s := ⟨2, ![R, C]⟩) ![o0, o1] ![r, c] inb).idx (ix2 p q)) = _
  refine congrArg X (funext fun a => Fin.ext ?_)
  match a with
  | ⟨0, _⟩ => show o0 + 1 * p.val = o0 + p.val; omega
  | ⟨1, _⟩ => show o1 + 1 * q.val = o1 + q.val; omega

end Cert.SliceRead

end
-- ==== Proof.KernelBlock.lean ====
/-
  The kernel's output block over the extended reals: row p of the block is the row function of row p of the token tile.

  Over the extended reals a change of float format is the identity and a matrix product into a zero accumulator is
  the plain contraction Σₖ L(p, k) · R(k, c). Trip c of the body's loop (c = 0, 1) forms, for the 1408 hidden columns
  1408·c + a of its half, the activation (g · σ(g)) · u from the gate column 1408·c + a and the up column
  2816 + 1408·c + a of the gate-and-up projection (each with its rank-16 correction), and adds that half's
  contribution to the two accumulators, which start at zero. The stored block adds the rank-16 correction of the
  down projection. That is the row function with its hidden sums taken half by half.
-/
import proofs.«167584_j86595130622105_2_alg».proof.Proof.KernelBody
import proofs.«167584_j86595130622105_2_alg».proof.Proof.Spec
import proofs.«167584_j86595130622105_2_alg».proof.Proof.LibMatmulRowsByCols
import proofs.«167584_j86595130622105_2_alg».proof.Proof.LibSliceRead
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Cert.KernelIdeal.Body Idealize.ShloMosaic Idealize.ShloMosaic.ValueIdx Cert.LoraMlp

/-- The logistic of a vector, at an index. -/
theorem logistic_apply {s : Shape} {φ : FTy} (a : FVec Ideal s φ) (i : s.Idx) : logistic a i = Ideal.logistic (a i) := rfl

section payloads
variable (x0 : FVec Ideal S256x1024 .f32) (x2 : FVec Ideal S1024x16 .bf16)
  (g u : FVec Ideal S1024x1408 .bf16) (bg bu : FVec Ideal S16x1408 .bf16)

/-- The tile's rank-16 image, at (p, r). -/
theorem low_apply (p : Fin 256) (r : Fin 16) :
    matmul dot_S256x1024_S1024x16_S256x16_1_0_0_1_n_n none (truncf .bf16 (x0 : FVec Ideal S256x1024 .f32) bitsLt_bf16_f32)
        (x2 : FVec Ideal S1024x16 .bf16) (constant (F := Ideal) S256x16 .f32 0x00000000#32) (ix2 p r)
      = ∑ d : Fin 1024, x0 (ix2 p d) * x2 (ix2 d r) :=
  Cert.RowsByCols.matmul_zero_apply _ ⟨rfl, rfl, rfl, rfl, rfl, rfl⟩ none _ _ p r

/-- One half's activation at (p, a): (g · σ(g)) · u, with g and u the gate and up entries of that half. -/
theorem pay3_apply (p : Fin 256) (a : Fin 1408) :
    k0_pay3 (F := Ideal) x0 x2 g u bg bu (ix2 p a)
      = (((∑ d : Fin 1024, x0 (ix2 p d) * g (ix2 d a)) + ∑ r : Fin 16, (∑ d : Fin 1024, x0 (ix2 p d) * x2 (ix2 d r)) * bg (ix2 r a))
          * Ideal.logistic ((∑ d : Fin 1024, x0 (ix2 p d) * g (ix2 d a)) + ∑ r : Fin 16, (∑ d : Fin 1024, x0 (ix2 p d) * x2 (ix2 d r)) * bg (ix2 r a)))
        * ((∑ d : Fin 1024, x0 (ix2 p d) * u (ix2 d a)) + ∑ r : Fin 16, (∑ d : Fin 1024, x0 (ix2 p d) * x2 (ix2 d r)) * bu (ix2 r a)) := by
  have m1 : ∀ w : FVec Ideal S1024x1408 .bf16,
      matmul dot_S256x1024_S1024x1408_S256x1408_1_0_0_1_n_n none (truncf .bf16 (x0 : FVec Ideal S256x1024 .f32) bitsLt_bf16_f32) w
          (constant (F := Ideal) S256x1408 .f32 0x00000000#32) (ix2 p a)
        = ∑ d : Fin 1024, x0 (ix2 p d) * w (ix2 d a) :=
    fun w => Cert.RowsByCols.matmul_zero_apply _ ⟨rfl, rfl, rfl, rfl, rfl, rfl⟩ none _ w p a
  have m2 : ∀ w : FVec Ideal S16x1408 .bf16,
      matmul dot_S256x16_S16x1408_S256x1408_1_0_0_1_n_n none
          (truncf .bf16 (matmul dot_S256x1024_S1024x16_S256x16_1_0_0_1_n_n none (truncf .bf16 (x0 : FVec Ideal S256x1024 .f32) bitsLt_bf16_f32)
            (x2 : FVec Ideal S1024x16 .bf16) (constant (F := Ideal) S256x16 .f32 0x00000000#32)) bitsLt_bf16_f32) w
          (constant (F := Ideal) S256x1408 .f32 0x00000000#32) (ix2 p a)
        = ∑ r : Fin 16, (∑ d : Fin 1024, x0 (ix2 p d) * x2 (ix2 d r)) * w (ix2 r a) :=
    fun w => (Cert.RowsByCols.matmul_zero_apply _ ⟨rfl, rfl, rfl, rfl, rfl, rfl⟩ none _ w p a).trans
      (Finset.sum_congr rfl fun r _ => congrArg (· * w (ix2 r a)) (low_apply x0 x2 p r))
  unfold k0_pay3
  simp only [shapeCast_self, truncf_apply, mulf_apply, addf_apply, logistic_apply]
  rw [m1 g, m2 bg, m1 u, m2 bu]

/-- A trip's update of the [256, 1024] accumulator at (p, j): the accumulator plus that half's activation times its
    1408 rows of the down weights. -/
theorem pay4_apply (acc : FVec Ideal S256x1024 .f32) (wd : FVec Ideal S1408x1024 .bf16) (p : Fin 256) (j : Fin 1024) :
    k0_pay4 (F := Ideal) x0 x2 acc g u bg bu wd (ix2 p j)
      = acc (ix2 p j) + ∑ a : Fin 1408, k0_pay3 (F := Ideal) x0 x2 g u bg bu (ix2 p a) * wd (ix2 a j) := by
  unfold k0_pay4
  simp only [shapeCast_self, addf_apply]
  exact congrArg (acc (ix2 p j) + ·)
    (Cert.RowsByCols.matmul_zero_apply _ ⟨rfl, rfl, rfl, rfl, rfl, rfl⟩ none (k0_pay3 (F := Ideal) x0 x2 g u bg bu) (wd : FVec Ideal S1408x1024 .bf16) p j)

/-- A trip's update of the [256, 16] accumulator at (p, r). -/
theorem pay5_apply (acc : FVec Ideal S256x16 .f32) (ad : FVec Ideal S1408x16 .bf16) (p : Fin 256) (r : Fin 16) :
    k0_pay5 (F := Ideal) x0 x2 acc g u bg bu ad (ix2 p r)
      = acc (ix2 p r) + ∑ a : Fin 1408, k0_pay3 (F := Ideal) x0 x2 g u bg bu (ix2 p a) * ad (ix2 a r) := by
  unfold k0_pay5
  simp only [shapeCast_self, addf_apply]
  exact congrArg (acc (ix2 p r) + ·)
    (Cert.RowsByCols.matmul_zero_apply _ ⟨rfl, rfl, rfl, rfl, rfl, rfl⟩ none (k0_pay3 (F := Ideal) x0 x2 g u bg bu) (ad : FVec Ideal S1408x16 .bf16) p r)

end payloads

/-- The closing payload at (p, j): the first accumulator plus the second one times the [16, 1024] weights. -/
theorem pay6_apply (s1 : FVec Ideal S256x1024 .f32) (s2 : FVec Ideal S256x16 .f32) (x6 : FVec Ideal S16x1024 .bf16)
    (p : Fin 256) (j : Fin 1024) :
    k0_pay6 (F := Ideal) s1 s2 x6 (ix2 p j) = s1 (ix2 p j) + ∑ r : Fin 16, s2 (ix2 p r) * x6 (ix2 r j) := by
  unfold k0_pay6
  simp only [shapeCast_self, addf_apply]
  exact congrArg (s1 (ix2 p j) + ·)
    (Cert.RowsByCols.matmul_zero_apply _ ⟨rfl, rfl, rfl, rfl, rfl, rfl⟩ none (truncf .bf16 s2 bitsLt_bf16_f32) (x6 : FVec Ideal S16x1024 .bf16) p j)

/-- The accumulators start at zero. -/
theorem pay1_apply (i : S256x1024.Idx) : k0_pay1 (F := Ideal) i = 0 := Ideal.ofBits_zero_f32
theorem pay2_apply (i : S256x16.Idx) : k0_pay2 (F := Ideal) i = 0 := Ideal.ofBits_zero_f32

/-! ## The slices trip c reads -/

section slices
variable (c : Nat) (hc : c < 2)

/-- Gate columns of the [1024, 5632] weights: column a of trip c's slice is gate column 1408·c + a. -/
theorem gate_slice (x1 : Vec Ideal S1024x5632 .bf16) (d : Fin 1024) (a : Fin 1408) :
    View.ld x1 (Rect.unit (s := S1024x5632) (k0_off1 (tripIx c hc)) S1024x1408.size (k0_off1_inb (tripIx c hc))) (ix2 d a)
      = x1 (ix2 d (gateCol (halfCol c hc a))) := by
  refine (Cert.SliceRead.ld_unit2 x1 _ 0 (1408 * c) (k0_off1_eq (tripIx c hc)) _ d a
    (by have := d.isLt; omega) (by have := a.isLt; omega)).trans (congrArg x1 ?_)
  exact funext fun b => Fin.ext (by
    match b with
    | ⟨0, _⟩ => show 0 + d.val = d.val; omega
    | ⟨1, _⟩ => rfl)

/-- Up columns: column a of trip c's second slice is up column 2816 + 1408·c + a. -/
theorem up_slice (x1 : Vec Ideal S1024x5632 .bf16) (d : Fin 1024) (a : Fin 1408) :
    View.ld x1 (Rect.unit (s := S1024x5632) (k0_off2 (tripIx c hc)) S1024x1408.size (k0_off2_inb (tripIx c hc))) (ix2 d a)
      = x1 (ix2 d (upCol (halfCol c hc a))) := by
  refine (Cert.SliceRead.ld_unit2 x1 _ 0 (1408 * c + 2816) (k0_off2_eq (tripIx c hc)) _ d a
    (by have := d.isLt; omega) (by have := a.isLt; omega)).trans (congrArg x1 ?_)
  exact funext fun b => Fin.ext (by
    match b with
    | ⟨0, _⟩ => show 0 + d.val = d.val; omega
    | ⟨1, _⟩ => show 1408 * c + 2816 + a.val = 2816 + (1408 * c + a.val); omega)

/-- The same two slices of the [16, 5632] weights. -/
theorem bgate_slice (x3 : Vec Ideal S16x5632 .bf16) (r : Fin 16) (a : Fin 1408) :
    View.ld x3 (Rect.unit (s := S16x5632) (k0_off3 (tripIx c hc)) S16x1408.size (k0_off3_inb (tripIx c hc))) (ix2 r a)
      = x3 (ix2 r (gateCol (halfCol c hc a))) := by
  refine (Cert.SliceRead.ld_unit2 x3 _ 0 (1408 * c) (k0_off3_eq (tripIx c hc)) _ r a
    (by have := r.isLt; omega) (by have := a.isLt; omega)).trans (congrArg x3 ?_)
  exact funext fun b => Fin.ext (by
    match b with
    | ⟨0, _⟩ => show 0 + r.val = r.val; omega
    | ⟨1, _⟩ => rfl)

theorem bup_slice (x3 : Vec Ideal S16x5632 .bf16) (r : Fin 16) (a : Fin 1408) :
    View.ld x3 (Rect.unit (s := S16x5632) (k0_off4 (tripIx c hc)) S16x1408.size (k0_off4_inb (tripIx c hc))) (ix2 r a)
      = x3 (ix2 r (upCol (halfCol c hc a))) := by
  refine (Cert.SliceRead.ld_unit2 x3 _ 0 (1408 * c + 2816) (k0_off4_eq (tripIx c hc)) _ r a
    (by have := r.isLt; omega) (by have := a.isLt; omega)).trans (congrArg x3 ?_)
  exact funext fun b => Fin.ext (by
    match b with
    | ⟨0, _⟩ => show 0 + r.val = r.val; omega
    | ⟨1, _⟩ => show 1408 * c + 2816 + a.val = 2816 + (1408 * c + a.val); omega)

/-- Rows of the [2816, 1024] down weights: row a of trip c's slice is row 1408·c + a. -/
theorem down_slice (x4 : Vec Ideal S2816x1024 .bf16) (a : Fin 1408) (j : Fin 1024) :
    View.ld x4 (Rect.unit (s := S2816x1024) (k0_off5 (tripIx c hc)) S1408x1024.size (k0_off5_inb (tripIx c hc))) (ix2 a j)
      = x4 (ix2 (halfCol c hc a) j) := by
  refine (Cert.SliceRead.ld_unit2 x4 _ (1408 * c) 0 (k0_off5_eq (tripIx c hc)) _ a j
    (by have := a.isLt; omega) (by have := j.isLt; omega)).trans (congrArg x4 ?_)
  exact funext fun b => Fin.ext (by
    match b with
    | ⟨0, _⟩ => rfl
    | ⟨1, _⟩ => show 0 + j.val = j.val; omega)

/-- Rows of the [2816, 16] weights likewise. -/
theorem downLow_slice (x5 : Vec Ideal S2816x16 .bf16) (a : Fin 1408) (r : Fin 16) :
    View.ld x5 (Rect.unit (s := S2816x16) (k0_off6 (tripIx c hc)) S1408x16.size (k0_off6_inb (tripIx c hc))) (ix2 a r)
      = x5 (ix2 (halfCol c hc a) r) := by
  refine (Cert.SliceRead.ld_unit2 x5 _ (1408 * c) 0 (k0_off6_eq (tripIx c hc)) _ a r
    (by have := a.isLt; omega) (by have := r.isLt; omega)).trans (congrArg x5 ?_)
  exact funext fun b => Fin.ext (by
    match b with
    | ⟨0, _⟩ => rfl
    | ⟨1, _⟩ => show 0 + r.val = r.val; omega)

/-- Trip c's activation at (p, a) is the hidden activation of row p at hidden column 1408·c + a. -/
theorem half_eq (x0 : Vec Ideal S256x1024 .f32) (x1 : Vec Ideal S1024x5632 .bf16) (x2 : Vec Ideal S1024x16 .bf16)
    (x3 : Vec Ideal S16x5632 .bf16) (p : Fin 256) (a : Fin 1408) :
    k0_pay3 (F := Ideal) x0 x2
        (View.ld x1 (Rect.unit (s := S1024x5632) (k0_off1 (tripIx c hc)) S1024x1408.size (k0_off1_inb (tripIx c hc))))
        (View.ld x1 (Rect.unit (s := S1024x5632) (k0_off2 (tripIx c hc)) S1024x1408.size (k0_off2_inb (tripIx c hc))))
        (View.ld x3 (Rect.unit (s := S16x5632) (k0_off3 (tripIx c hc)) S16x1408.size (k0_off3_inb (tripIx c hc))))
        (View.ld x3 (Rect.unit (s := S16x5632) (k0_off4 (tripIx c hc)) S16x1408.size (k0_off4_inb (tripIx c hc))))
        (ix2 p a)
      = hiddenAct x1 x2 x3 (fun d => x0 (ix2 p d)) (halfCol c hc a) := by
  rw [pay3_apply]
  simp only [gate_slice c hc x1, up_slice c hc x1, bgate_slice c hc x3, bup_slice c hc x3]
  rfl

end slices

/-- THE BLOCK at (p, j) is the row function of row p of the token tile, at column j. -/
theorem bodyVal_apply (x0 : Vec Ideal S256x1024 .f32) (x1 : Vec Ideal S1024x5632 .bf16) (x2 : Vec Ideal S1024x16 .bf16)
    (x3 : Vec Ideal S16x5632 .bf16) (x4 : Vec Ideal S2816x1024 .bf16) (x5 : Vec Ideal S2816x16 .bf16) (x6 : Vec Ideal S16x1024 .bf16)
    (p : Fin 256) (j : Fin 1024) :
    bodyVal (F := Ideal) x0 x1 x2 x3 x4 x5 x6 (ix2 p j) = rowOut x1 x2 x3 x4 x5 x6 (fun d => x0 (ix2 p d)) j := by
  rw [← rowOut_halves]
  unfold bodyVal tripVal
  rw [pay6_apply]
  simp only [pay4_apply, pay5_apply, pay1_apply, pay2_apply, half_eq, down_slice _ _ x4, downLow_slice _ _ x5]

end Cert.KernelIdeal.Block

end
-- ==== Proof.KernelValue.lean ====
/-
  From the kernel's blocks to its whole result array.

  The grid has 64 points; point t stages rows 256·t … 256·t + 255 of the token matrix and the six weight matrices
  whole (each converted to a narrower float format on the host first, which changes nothing over the extended reals),
  and writes back rows 256·t … 256·t + 255 of the result. Row p of the block point t writes is the row function of
  row 256·t + p of the token matrix, so each block is the restriction of ONE whole-array function; the 64 blocks
  tile the 16384 rows, so the array ends holding that function.
-/
import proofs.«167584_j86595130622105_2_alg».proof.Proof.KernelBlock
import proofs.«167584_j86595130622105_2_alg».proof.Proof.Gen.KernelIdeal.Value
import Idealize.ShloMosaic.Lib.StableHlo.Run

set_option maxRecDepth 16384

noncomputable section

namespace Cert.KernelIdeal.Final

open Cert.KernelIdeal Cert.KernelIdeal.Gen Cert.KernelIdeal.Body Cert.KernelIdeal.Block
open Idealize.ShloMosaic Idealize.ShloMosaic.TcCoe Idealize.SL.Sem Idealize.ShloMosaic.ValueIdx Cert.LoraMlp
open Idealize.ShloMosaic.Pipeline (Dat)

variable (m : (ℓ : Loc nD τ sig) → Buf (Elt Ideal) ℓ) (ρ : Dev nD → PrngReg)

/-! ## The weights as the region finds them -/

theorem V_w1 (c : Dev nD) : (V m c main_call0_v0 : S1024x5632.Idx → EReal) = m ((c : Thread nD τ).loc main_arg1) := by
  dsimp only [V, hostOps0]; after_results; rfl
theorem V_w2 (c : Dev nD) : (V m c main_call0_v1 : S1024x16.Idx → EReal) = m ((c : Thread nD τ).loc main_arg2) := by
  dsimp only [V, hostOps0]; after_results; rfl
theorem V_w3 (c : Dev nD) : (V m c main_call0_v2 : S16x5632.Idx → EReal) = m ((c : Thread nD τ).loc main_arg3) := by
  dsimp only [V, hostOps0]; after_results; rfl
theorem V_w4 (c : Dev nD) : (V m c main_call0_v3 : S2816x1024.Idx → EReal) = m ((c : Thread nD τ).loc main_arg4) := by
  dsimp only [V, hostOps0]; after_results; rfl
theorem V_w5 (c : Dev nD) : (V m c main_call0_v4 : S2816x16.Idx → EReal) = m ((c : Thread nD τ).loc main_arg5) := by
  dsimp only [V, hostOps0]; after_results; rfl
theorem V_w6 (c : Dev nD) : (V m c main_call0_v5 : S16x1024.Idx → EReal) = m ((c : Thread nD τ).loc main_arg6) := by
  dsimp only [V, hostOps0]; after_results; rfl

/-! ## The windows' blocks -/

/-- The printed index maps, decided over the 64 points: the token tile and the result tile move with the point along
    the rows; every weight window sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

theorem iblk1 (c : Dev nD) (t : Fin cfg0.N) : (iblk m c 1 t : Vec Ideal S1024x5632 .bf16) = m ((c : Thread nD τ).loc main_arg1) := by
  have e0 : win0_1.index t (0 : Fin 2) = 0 := (idx_facts t).2.2.1
  have e1 : win0_1.index t (1 : Fin 2) = 0 := (idx_facts t).2.2.2.1
  funext y
  unfold iblk
  rw [View.read_apply]
  show V m c main_call0_v0 (((cfg0.win 1).blk t).view.emb y) = _
  refine (congrFun (V_w1 m c) _).trans (congrArg _ (funext fun a => Fin.ext ?_))
  match a with
  | ⟨0, _⟩ => show win0_1.index t (0 : Fin 2) * 1024 + 1 * (y 0).val = (y 0).val; rw [e0]; omega
  | ⟨1, _⟩ => show win0_1.index t (1 : Fin 2) * 5632 + 1 * (y 1).val = (y 1).val; rw [e1]; omega

theorem iblk2 (c : Dev nD) (t : Fin cfg0.N) : (iblk m c 2 t : Vec Ideal S1024x16 .bf16) = m ((c : Thread nD τ).loc main_arg2) := by
  have e0 : win0_2.index t (0 : Fin 2) = 0 := (idx_facts t).2.2.2.2.1
  have e1 : win0_2.index t (1 : Fin 2) = 0 := (idx_facts t).2.2.2.2.2.1
  funext y
  unfold iblk
  rw [View.read_apply]
  show V m c main_call0_v1 (((cfg0.win 2).blk t).view.emb y) = _
  refine (congrFun (V_w2 m c) _).trans (congrArg _ (funext fun a => Fin.ext ?_))
  match a with
  | ⟨0, _⟩ => show win0_2.index t (0 : Fin 2) * 1024 + 1 * (y 0).val = (y 0).val; rw [e0]; omega
  | ⟨1, _⟩ => show win0_2.index t (1 : Fin 2) * 16 + 1 * (y 1).val = (y 1).val; rw [e1]; omega

theorem iblk3 (c : Dev nD) (t : Fin cfg0.N) : (iblk m c 3 t : Vec Ideal S16x5632 .bf16) = m ((c : Thread nD τ).loc main_arg3) := by
  have e0 : win0_3.index t (0 : Fin 2) = 0 := (idx_facts t).2.2.2.2.2.2.1
  have e1 : win0_3.index t (1 : Fin 2) = 0 := (idx_facts t).2.2.2.2.2.2.2.1
  funext y
  unfold iblk
  rw [View.read_apply]
  show V m c main_call0_v2 (((cfg0.win 3).blk t).view.emb y) = _
  refine (congrFun (V_w3 m c) _).trans (congrArg _ (funext fun a => Fin.ext ?_))
  match a with
  | ⟨0, _⟩ => show win0_3.index t (0 : Fin 2) * 16 + 1 * (y 0).val = (y 0).val; rw [e0]; omega
  | ⟨1, _⟩ => show win0_3.index t (1 : Fin 2) * 5632 + 1 * (y 1).val = (y 1).val; rw [e1]; omega

theorem iblk4 (c : Dev nD) (t : Fin cfg0.N) : (iblk m c 4 t : Vec Ideal S2816x1024 .bf16) = m ((c : Thread nD τ).loc main_arg4) := by
  have e0 : win0_4.index t (0 : Fin 2) = 0 := (idx_facts t).2.2.2.2.2.2.2.2.1
  have e1 : win0_4.index t (1 : Fin 2) = 0 := (idx_facts t).2.2.2.2.2.2.2.2.2.1
  funext y
  unfold iblk
  rw [View.read_apply]
  show V m c main_call0_v3 (((cfg0.win 4).blk t).view.emb y) = _
  refine (congrFun (V_w4 m c) _).trans (congrArg _ (funext fun a => Fin.ext ?_))
  match a with
  | ⟨0, _⟩ => show win0_4.index t (0 : Fin 2) * 2816 + 1 * (y 0).val = (y 0).val; rw [e0]; omega
  | ⟨1, _⟩ => show win0_4.index t (1 : Fin 2) * 1024 + 1 * (y 1).val = (y 1).val; rw [e1]; omega

theorem iblk5 (c : Dev nD) (t : Fin cfg0.N) : (iblk m c 5 t : Vec Ideal S2816x16 .bf16) = m ((c : Thread nD τ).loc main_arg5) := by
  have e0 : win0_5.index t (0 : Fin 2) = 0 := (idx_facts t).2.2.2.2.2.2.2.2.2.2.1
  have e1 : win0_5.index t (1 : Fin 2) = 0 := (idx_facts t).2.2.2.2.2.2.2.2.2.2.2.1
  funext y
  unfold iblk
  rw [View.read_apply]
  show V m c main_call0_v4 (((cfg0.win 5).blk t).view.emb y) = _
  refine (congrFun (V_w5 m c) _).trans (congrArg _ (funext fun a => Fin.ext ?_))
  match a with
  | ⟨0, _⟩ => show win0_5.index t (0 : Fin 2) * 2816 + 1 * (y 0).val = (y 0).val; rw [e0]; omega
  | ⟨1, _⟩ => show win0_5.index t (1 : Fin 2) * 16 + 1 * (y 1).val = (y 1).val; rw [e1]; omega

theorem iblk6 (c : Dev nD) (t : Fin cfg0.N) : (iblk m c 6 t : Vec Ideal S16x1024 .bf16) = m ((c : Thread nD τ).loc main_arg6) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  funext y
  unfold iblk
  rw [View.read_apply]
  show V m c main_call0_v5 (((cfg0.win 6).blk t).view.emb y) = _
  refine (congrFun (V_w6 m c) _).trans (congrArg _ (funext fun a => Fin.ext ?_))
  match a with
  | ⟨0, _⟩ => show win0_6.index t (0 : Fin 2) * 16 + 1 * (y 0).val = (y 0).val; rw [e0]; omega
  | ⟨1, _⟩ => show win0_6.index t (1 : Fin 2) * 1024 + 1 * (y 1).val = (y 1).val; rw [e1]; omega

/-- The token tile at point t is rows 256·t … 256·t + 255 of the token matrix. -/
theorem iblk0_apply (c : Dev nD) (t : Fin cfg0.N) (p : Fin 256) (d : Fin 1024) (h : 256 * t.val + p.val < 16384) :
    (iblk m c 0 t : Vec Ideal S256x1024 .f32) (ix2 p d) = m ((c : Thread nD τ).loc main_arg0) (ix2 ⟨256 * t.val + p.val, h⟩ d) := by
  have e0 : win0_0.index t (0 : Fin 2) = t.val := (idx_facts t).1
  have e1 : win0_0.index t (1 : Fin 2) = 0 := (idx_facts t).2.1
  unfold iblk
  rw [View.read_apply]
  show V m c main_arg0 (((cfg0.win 0).blk t).view.emb (ix2 p d)) = _
  rw [V_main_arg0]
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 1024 + 1 * d.val = d.val; rw [e1]; omega

/-! ## Each block is the restriction of one whole-array function -/

/-- The whole result: the row function of each row of the token matrix, over the weights as launched. -/
abbrev result (c : Dev nD) : S16384x1024.Idx → EReal :=
  wholeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A block whose row p is the row function of row e(p, ·) of a whole array is that array read through e. -/
theorem block_fun (x0 : Vec Ideal S256x1024 .f32) (x1 : Vec Ideal S1024x5632 .bf16) (x2 : Vec Ideal S1024x16 .bf16)
    (x3 : Vec Ideal S16x5632 .bf16) (x4 : Vec Ideal S2816x1024 .bf16) (x5 : Vec Ideal S2816x16 .bf16) (x6 : Vec Ideal S16x1024 .bf16)
    (R : S16384x1024.Idx → EReal) (e : S256x1024.Idx → S16384x1024.Idx)
    (h : ∀ (p : Fin 256) (j : Fin 1024), R (e (ix2 p j)) = rowOut x1 x2 x3 x4 x5 x6 (fun d => x0 (ix2 p d)) j) :
    bodyVal (F := Ideal) x0 x1 x2 x3 x4 x5 x6 = fun y => R (e y) := by
  funext y
  obtain ⟨p, j, rfl⟩ : ∃ (p : Fin 256) (j : Fin 1024), y = ix2 p j := ⟨y 0, y 1, eq_ix2 y⟩
  rw [bodyVal_apply, h]

/-- WHAT POINT t WRITES BACK is block t of the whole result. -/
theorem flushed_eq (c : Dev nD) (t : Fin cfg0.N) :
    (dats m 0 c).flushed 7 t = ((cfg0.win 7).blk t).view.read (Elt Ideal) (result m c) := by
  rw [Value.flushed7_A, Body.out_eq]
  have e0 : win0_7.index t (0 : Fin 2) = t.val := (idx_facts t).2.2.2.2.2.2.2.2.2.2.2.2.2.2.1
  have e1 : win0_7.index t (1 : Fin 2) = 0 := (idx_facts t).2.2.2.2.2.2.2.2.2.2.2.2.2.2.2
  have ht := t_lt t
  rw [block_fun (iblk m c 0 t) (iblk m c 1 t) (iblk m c 2 t) (iblk m c 3 t) (iblk m c 4 t) (iblk m c 5 t) (iblk m c 6 t)
    (result m c) (fun y => ((cfg0.win 7).blk t).view.emb y) ?_]
  · rfl
  · intro p j
    have hp := p.isLt
    have hemb : ((cfg0.win 7).blk t).view.emb (ix2 p j) = ix2 (⟨256 * t.val + p.val, by omega⟩ : Fin 16384) j :=
      funext fun a => Fin.ext (by
        match a with
        | ⟨0, _⟩ => show win0_7.index t (0 : Fin 2) * 256 + 1 * p.val = 256 * t.val + p.val; rw [e0]; omega
        | ⟨1, _⟩ => show win0_7.index t (1 : Fin 2) * 1024 + 1 * j.val = j.val; rw [e1]; omega)
    show result m c (((cfg0.win 7).blk t).view.emb (ix2 p j)) = _
    rw [hemb]
    unfold result
    rw [wholeOut_ix2, iblk1, iblk2, iblk3, iblk4, iblk5, iblk6]
    exact congrArg (fun x => rowOut _ _ _ _ _ _ x j) (funext fun d => (iblk0_apply m c t p d _).symm)

/-- An index of the result is in point t's block iff each coordinate is in the block's range on its axis. -/
theorem mem_blk (t : Fin cfg0.N) (i : S16384x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v0).slice (win0_7.rect t)).set ↔ _
  rw [View.set_slice_whole, Rect.mem_set_unit]
  exact Iff.rfl

/-- The 64 blocks of 256 rows tile the 16384 rows: row r is in the block of point r / 256. -/
theorem cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  have e0 : win0_7.index t (0 : Fin 2) = t.val := (idx_facts t).2.2.2.2.2.2.2.2.2.2.2.2.2.2.1
  have e1 : win0_7.index t (1 : Fin 2) = 0 := (idx_facts t).2.2.2.2.2.2.2.2.2.2.2.2.2.2.2
  refine ⟨t, flush0_7 t, ?_⟩
  rw [mem_blk]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 1024 ≤ (i 1).val ∧ (i 1).val < win0_7.index t (1 : Fin 2) * 1024 + 1024
    rw [e1]; omega

/-- THE RESULT ARRAY after the run is the whole result. -/
theorem final (c : Dev nD) : (dats m 0 c).arrAt 7 cfg0.N = result m c :=
  (dats m 0 c).arrAt_eq_of_cover 7 (result m c) (fun t _ => flushed_eq m c t) cover

/-- The kernel's run, read: the result array at the whole result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.RefValue.lean ====
/-
  The reference program computes the row function, row by row.

  Its stages are read one at a time (the generated read-at-an-index lemmas): the two gate-and-up products and their
  sum, the two column slices (gate = columns 0..2815, up = columns 2816..5631), the logistic spelt as
  1 / (1 + e^(−t)), the two products, and the down projection with its low-rank correction. Each general dot product
  contracts the left operand's columns with the right operand's rows, so its entry (i, c) is Σₖ L(i, k) · R(k, c).
-/
import proofs.«167584_j86595130622105_2_alg».proof.Proof.Gen.ReferenceIdeal.Read
import proofs.«167584_j86595130622105_2_alg».proof.Proof.Spec
import proofs.«167584_j86595130622105_2_alg».proof.Proof.LibMatmulRowsByCols

noncomputable section

namespace Cert.ReferenceIdeal.RefValue

open Cert.ReferenceIdeal Cert.ReferenceIdeal.Read Idealize.ShloMosaic Idealize.ShloMosaic.ValueIdx Cert.LoraMlp

variable (x0 : (⟨S16384x1024, .f32⟩ : BufTy).Contents (Elt Ideal)) (x1 : (⟨S1024x5632, .f32⟩ : BufTy).Contents (Elt Ideal)) (x2 : (⟨S1024x16, .f32⟩ : BufTy).Contents (Elt Ideal))
  (x3 : (⟨S16x5632, .f32⟩ : BufTy).Contents (Elt Ideal)) (x4 : (⟨S2816x1024, .f32⟩ : BufTy).Contents (Elt Ideal)) (x5 : (⟨S2816x16, .f32⟩ : BufTy).Contents (Elt Ideal)) (x6 : (⟨S16x1024, .f32⟩ : BufTy).Contents (Elt Ideal))

/-- Row i of the token matrix. -/
abbrev row (i : Fin 16384) : Fin 1024 → EReal := fun d => x0 (ix2 i d)

/-- x · A₁ at (i, r) is the rank-16 image of row i. -/
theorem low_eq (i : Fin 16384) (r : Fin 16) :
    val_main_v1 (F := Ideal) x0 x2 (ix2 i r) = lowRank x2 (row x0 i) r := by
  unfold val_main_v1 lowRank
  exact Cert.RowsByCols.dotGeneral_apply _ ⟨rfl, rfl, rfl, rfl, rfl, rfl⟩ none x0 x2 i r

/-- x · W₁ + (x · A₁) · B₁ at (i, n). -/
theorem gateUp_eq (i : Fin 16384) (n : Fin 5632) :
    val_main_v3 (F := Ideal) x0 x1 x2 x3 (ix2 i n) = gateUp x1 x2 x3 (row x0 i) n := by
  rw [val_main_v3_apply]
  unfold val_main_v0 val_main_v2 gateUp
  rw [Cert.RowsByCols.dotGeneral_apply _ ⟨rfl, rfl, rfl, rfl, rfl, rfl⟩ none x0 x1 i n,
    Cert.RowsByCols.dotGeneral_apply _ ⟨rfl, rfl, rfl, rfl, rfl, rfl⟩ none (val_main_v1 (F := Ideal) x0 x2) x3 i n]
  refine congrArg₂ (· + ·) rfl (Finset.sum_congr rfl fun r _ => ?_)
  rw [low_eq]

/-- silu(gate) · up at (i, k). -/
theorem hidden_eq (i : Fin 16384) (k : Fin 2816) :
    val_main_v7 (F := Ideal) x0 x1 x2 x3 (ix2 i k) = hiddenAct x1 x2 x3 (row x0 i) k := by
  have e4 : idx_main_v4 (ix2 i k) = ix2 i (gateCol k) :=
    funext fun a => Fin.ext (by match a with | ⟨0, _⟩ => rfl | ⟨1, _⟩ => rfl)
  have e5 : idx_main_v5 (ix2 i k) = ix2 i (upCol k) :=
    funext fun a => Fin.ext (by match a with | ⟨0, _⟩ => rfl | ⟨1, _⟩ => rfl)
  rw [val_main_v7_apply, val_main_v6_apply, val_main_call0_v5_apply, val_main_call0_v4_apply, val_main_call0_cst_0_apply,
    val_main_call0_v3_apply, val_main_call0_v2_apply, val_main_call0_cst_apply, val_main_call0_v1_apply,
    val_main_call0_v0_apply, val_main_v4_apply, val_main_v5_apply, e4, e5, gateUp_eq, gateUp_eq]
  unfold hiddenAct
  rw [show (FloatOps.ofBits .f32 0x3F800000#32 : Ideal .f32) = 1 from one_f32]
  rfl

/-- h · A₂ at (i, r). -/
theorem hiddenLow_eq (i : Fin 16384) (r : Fin 16) :
    val_main_v9 (F := Ideal) x0 x1 x2 x3 x5 (ix2 i r) = ∑ k : Fin 2816, hiddenAct x1 x2 x3 (row x0 i) k * x5 (ix2 k r) := by
  unfold val_main_v9
  rw [Cert.RowsByCols.dotGeneral_apply _ ⟨rfl, rfl, rfl, rfl, rfl, rfl⟩ none (val_main_v7 (F := Ideal) x0 x1 x2 x3) x5 i r]
  refine Finset.sum_congr rfl fun k _ => ?_
  rw [hidden_eq]

/-- THE REFERENCE'S RESULT at (i, j) is the row function of row i at column j. -/
theorem result_eq (i : Fin 16384) (j : Fin 1024) :
    val_main_v11 (F := Ideal) x0 x1 x2 x3 x4 x5 x6 (ix2 i j) = rowOut x1 x2 x3 x4 x5 x6 (row x0 i) j := by
  rw [val_main_v11_apply]
  unfold val_main_v8 val_main_v10 rowOut
  rw [Cert.RowsByCols.dotGeneral_apply _ ⟨rfl, rfl, rfl, rfl, rfl, rfl⟩ none (val_main_v7 (F := Ideal) x0 x1 x2 x3) x4 i j,
    Cert.RowsByCols.dotGeneral_apply _ ⟨rfl, rfl, rfl, rfl, rfl, rfl⟩ none (val_main_v9 (F := Ideal) x0 x1 x2 x3 x5) x6 i j]
  refine congrArg₂ (· + ·) (Finset.sum_congr rfl fun k _ => ?_) (Finset.sum_congr rfl fun r _ => ?_)
  · rw [hidden_eq]
  · rw [hiddenLow_eq]

end Cert.ReferenceIdeal.RefValue

end
-- ==== Proof.lean ====
/-
  A low-rank-corrected gated MLP: out = h · W₂ + (h · A₂) · B₂ with h = silu(g) ⊙ u, where (g | u) = x · W₁ + (x · A₁) · B₁
  is split into its first 2816 columns (gate) and its last 2816 columns (up), silu(t) = t · σ(t), σ(t) = 1 / (1 + e^(−t)).

  The kernel computes it one tile of 256 token rows at a time, the 2816 hidden columns in two halves of 1408 added
  into accumulators that start at zero; the reference computes it on whole arrays, with σ spelt as the quotient.
  Over the extended reals both are the same function of the arguments, row by row:
    · a change of float format is the identity, and a matrix product into a zero accumulator is the plain
      contraction, as is the reference's general dot product;
    · the kernel's logistic is by definition 1 / (1 + e^(−t)), the reference's expression;
    · a sum over 2816 columns equals zero plus its first half plus its second half (addition of extended reals is
      commutative and associative, 0 is neutral) — the only law used, so finiteness of the inputs is never needed;
    · the 64 blocks of 256 rows tile the 16384 rows, and each block is the restriction of the one whole-array function.
  The three frames are the generated ones (the reference's is its run with the result dropped); the idealization
  rewrote nothing, so there is nothing to preserve.
-/
import proofs.«167584_j86595130622105_2_alg».proof.Defs
import proofs.«167584_j86595130622105_2_alg».proof.Proof.Gen.Kernel
import proofs.«167584_j86595130622105_2_alg».proof.Proof.Gen.Kernel.Skeleton
import proofs.«167584_j86595130622105_2_alg».proof.Proof.Gen.Kernel.Loops
import proofs.«167584_j86595130622105_2_alg».proof.Proof.Gen.Kernel.Launch
import proofs.«167584_j86595130622105_2_alg».proof.Proof.Gen.Kernel.Points
import proofs.«167584_j86595130622105_2_alg».proof.Proof.Gen.Kernel.Frame
import proofs.«167584_j86595130622105_2_alg».proof.Proof.Gen.KernelIdeal
import proofs.«167584_j86595130622105_2_alg».proof.Proof.Gen.KernelIdeal.Skeleton
import proofs.«167584_j86595130622105_2_alg».proof.Proof.Gen.KernelIdeal.Loops
import proofs.«167584_j86595130622105_2_alg».proof.Proof.Gen.KernelIdeal.Launch
import proofs.«167584_j86595130622105_2_alg».proof.Proof.Gen.KernelIdeal.Points
import proofs.«167584_j86595130622105_2_alg».proof.Proof.Gen.KernelIdeal.Frame
import proofs.«167584_j86595130622105_2_alg».proof.Proof.Gen.KernelIdeal.Value
import proofs.«167584_j86595130622105_2_alg».proof.Proof.Gen.ReferenceIdeal
import proofs.«167584_j86595130622105_2_alg».proof.Proof.Gen.ReferenceIdeal.Run
import proofs.«167584_j86595130622105_2_alg».proof.Proof.Gen.ReferenceIdeal.Read
import proofs.«167584_j86595130622105_2_alg».proof.Proof.Gen.Pre_finite_inputs
import proofs.«167584_j86595130622105_2_alg».proof.Proof.KernelValue
import proofs.«167584_j86595130622105_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Both idealized programs end with the whole result: the kernel by its blocks, the reference stage by stage, from
    argument arrays that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Read.val_main_v11_eq _ _ _ _ _ _ _).trans ?_
  funext i
  obtain ⟨r, j, rfl⟩ : ∃ (r : Fin 16384) (j : Fin 1024), i = ix2 r j := ⟨i 0, i 1, eq_ix2 i⟩
  exact Cert.ReferenceIdeal.RefValue.result_eq _ _ _ _ _ _ _ r j

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
